-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x300 : Shape := ⟨2, ![524288, 300]⟩
abbrev S300x300 : Shape := ⟨2, ![300, 300]⟩
abbrev S300 : Shape := ⟨1, ![300]⟩
abbrev S300x1 : Shape := ⟨2, ![300, 1]⟩
abbrev S1 : Shape := ⟨1, ![1]⟩
abbrev S_ : Shape := ⟨0, ![]⟩

class Facts : Prop where
  bcast_S_S524288x300 : S_.BroadcastsInDim S524288x300 (![] : Fin 0 → Fin S524288x300.rank)
  reducesTo_S524288x300_S_d0_1 : S524288x300.ReducesTo [0, 1] S_
  h_S_ : 0 < S_.numel
  bcast_S_S300x300 : S_.BroadcastsInDim S300x300 (![] : Fin 0 → Fin S300x300.rank)
  reducesTo_S300x300_S_d0_1 : S300x300.ReducesTo [0, 1] S_
  bcast_S_S300 : S_.BroadcastsInDim S300 (![] : Fin 0 → Fin S300.rank)
  reducesTo_S300_S_d0 : S300.ReducesTo [0] S_
  bcast_S_S300x1 : S_.BroadcastsInDim S300x1 (![] : Fin 0 → Fin S300x1.rank)
  reducesTo_S300x1_S_d0_1 : S300x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S300 .f32) (main_arg5 : FVec F S300x1 .f32) (main_arg6 : FVec F S1 .f32) (main_v13 : IVec S_ 1) (main_v16 : IVec S300x300 1) : IVec S_ 1 :=
  let main_c_5 : IVec S_ 1 := constantI S_ 1 1#1
  let main_v17 : IVec S_ 1 := (fun x v => Host.reduce IntOp.andi x v reducesTo_S300x300_S_d0_1 h_S_) main_v16 main_c_5
  let main_v18 : IVec S_ 1 := andi main_v13 main_v17
  let main_v19 : FVec F S300 .f32 := Host.absf main_arg4
  let main_cst_6 : FVec F S_ .f32 := constant S_ .f32 0x7F800000#32
  let main_v20 : FVec F S300 .f32 := broadcastInDim S300 ![] bcast_S_S300 main_cst_6
  let main_v21 : IVec S300 1 := cmpf .olt main_v19 main_v20
  let main_c_7 : IVec S_ 1 := constantI S_ 1 1#1
  let main_v22 : IVec S_ 1 := (fun x v => Host.reduce IntOp.andi x v reducesTo_S300_S_d0 h_S_) main_v21 main_c_7
  let main_v23 : IVec S_ 1 := andi main_v18 main_v22
  let main_v24 : FVec F S300x1 .f32 := Host.absf main_arg5
  let main_cst_8 : FVec F S_ .f32 := constant S_ .f32 0x7F800000#32
  let main_v25 : FVec F S300x1 .f32 := broadcastInDim S300x1 ![] bcast_S_S300x1 main_cst_8
  let main_v26 : IVec S300x1 1 := cmpf .olt main_v24 main_v25
  let main_c_9 : IVec S_ 1 := constantI S_ 1 1#1
  let main_v27 : IVec S_ 1 := (fun x v => Host.reduce IntOp.andi x v reducesTo_S300x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S524288x300 .f32) (main_arg1 : FVec F S300x300 .f32) (main_arg2 : FVec F S300 .f32) (main_arg3 : FVec F S300x300 .f32) (main_arg4 : FVec F S300 .f32) (main_arg5 : FVec F S300x1 .f32) (main_arg6 : FVec F S1 .f32) : IVec S_ 1 :=
  let main_v0 : FVec F S524288x300 .f32 := Host.absf main_arg0
  let main_cst : FVec F S_ .f32 := constant S_ .f32 0x7F800000#32
  let main_v1 : FVec F S524288x300 .f32 := broadcastInDim S524288x300 ![] bcast_S_S524288x300 main_cst
  let main_v2 : IVec S524288x300 1 := cmpf .olt main_v0 main_v1
  let main_c : IVec S_ 1 := constantI S_ 1 1#1
  let main_v3 : IVec S_ 1 := (fun x v => Host.reduce IntOp.andi x v reducesTo_S524288x300_S_d0_1 h_S_) main_v2 main_c
  let main_v4 : FVec F S300x300 .f32 := Host.absf main_arg1
  let main_cst_0 : FVec F S_ .f32 := constant S_ .f32 0x7F800000#32
  let main_v5 : FVec F S300x300 .f32 := broadcastInDim S300x300 ![] bcast_S_S300x300 main_cst_0
  let main_v6 : IVec S300x300 1 := cmpf .olt main_v4 main_v5
  let main_c_1 : IVec S_ 1 := constantI S_ 1 1#1
  let main_v7 : IVec S_ 1 := (fun x v => Host.reduce IntOp.andi x v reducesTo_S300x300_S_d0_1 h_S_) main_v6 main_c_1
  let main_v8 : IVec S_ 1 := andi main_v3 main_v7
  let main_v9 : FVec F S300 .f32 := Host.absf main_arg2
  let main_cst_2 : FVec F S_ .f32 := constant S_ .f32 0x7F800000#32
  let main_v10 : FVec F S300 .f32 := broadcastInDim S300 ![] bcast_S_S300 main_cst_2
  let main_v11 : IVec S300 1 := cmpf .olt main_v9 main_v10
  let main_c_3 : IVec S_ 1 := constantI S_ 1 1#1
  let main_v12 : IVec S_ 1 := (fun x v => Host.reduce IntOp.andi x v reducesTo_S300_S_d0 h_S_) main_v11 main_c_3
  let main_v13 : IVec S_ 1 := andi main_v8 main_v12
  let main_v14 : FVec F S300x300 .f32 := Host.absf main_arg3
  let main_cst_4 : FVec F S_ .f32 := constant S_ .f32 0x7F800000#32
  let main_v15 : FVec F S300x300 .f32 := broadcastInDim S300x300 ![] bcast_S_S300x300 main_cst_4
  let main_v16 : IVec S300x300 1 := cmpf .olt main_v14 main_v15
  fn_part1 (F := F) main_arg4 main_arg5 main_arg6 main_v13 main_v16
-- ==== Kernel.lean ====
abbrev S524288x300 : Shape := ⟨2, ![524288, 300]⟩
abbrev S300x300 : Shape := ⟨2, ![300, 300]⟩
abbrev S300 : Shape := ⟨1, ![300]⟩
abbrev S300x1 : Shape := ⟨2, ![300, 1]⟩
abbrev S1 : Shape := ⟨1, ![1]⟩
abbrev S1x300 : Shape := ⟨2, ![1, 300]⟩
abbrev S1x1 : Shape := ⟨2, ![1, 1]⟩
abbrev S524288x1 : Shape := ⟨2, ![524288, 1]⟩
abbrev S4096x300 : Shape := ⟨2, ![4096, 300]⟩
abbrev S4096x1 : Shape := ⟨2, ![4096, 1]⟩
abbrev S4096 : Shape := ⟨1, ![4096]⟩
abbrev S524288 : Shape := ⟨1, ![524288]⟩

abbrev nBuf : Space → Nat
  | .hbm => 15
  | .vmem => 10
  | .smem => 0
  | _ => 0

abbrev bufTy : (tb : Table) → Fin (tcTables nBuf tb) → BufTy
  | .hbm, ⟨0, _⟩ => ⟨S524288x300, .f32⟩
  | .hbm, ⟨1, _⟩ => ⟨S300x300, .f32⟩
  | .hbm, ⟨2, _⟩ => ⟨S300, .f32⟩
  | .hbm, ⟨3, _⟩ => ⟨S300x300, .f32⟩
  | .hbm, ⟨4, _⟩ => ⟨S300, .f32⟩
  | .hbm, ⟨5, _⟩ => ⟨S300x1, .f32⟩
  | .hbm, ⟨6, _⟩ => ⟨S1, .f32⟩
  | .hbm, ⟨7, _⟩ => ⟨S300x300, .bf16⟩
  | .hbm, ⟨8, _⟩ => ⟨S300x300, .bf16⟩
  | .hbm, ⟨9, _⟩ => ⟨S1x300, .f32⟩
  | .hbm, ⟨10, _⟩ => ⟨S1x300, .f32⟩
  | .hbm, ⟨11, _⟩ => ⟨S1x300, .f32⟩
  | .hbm, ⟨12, _⟩ => ⟨S1x1, .f32⟩
  | .hbm, ⟨13, _⟩ => ⟨S524288x1, .f32⟩
  | .hbm, ⟨14, _⟩ => ⟨S524288, .f32⟩
  | .local _ .vmem, ⟨0, _⟩ => ⟨S4096x300, .f32⟩
  | .local _ .vmem, ⟨1, _⟩ => ⟨S4096x300, .f32⟩
  | .local _ .vmem, ⟨2, _⟩ => ⟨S300x300, .bf16⟩
  | .local _ .vmem, ⟨3, _⟩ => ⟨S1x300, .f32⟩
  | .local _ .vmem, ⟨4, _⟩ => ⟨S300x300, .bf16⟩
  | .local _ .vmem, ⟨5, _⟩ => ⟨S1x300, .f32⟩
  | .local _ .vmem, ⟨6, _⟩ => ⟨S1x300, .f32⟩
  | .local _ .vmem, ⟨7, _⟩ => ⟨S1x1, .f32⟩
  | .local _ .vmem, ⟨8, _⟩ => ⟨S4096x1, .f32⟩
  | .local _ .vmem, ⟨9, _⟩ => ⟨S4096x1, .f32⟩
  | _, _ => ⟨S524288x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S300x300 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x300 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S300x300 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x300 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x300 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  shapeCasts_S300x1_S1x300 : S300x1.ShapeCasts S1x300
  shapeCasts_S300_S1x300 : S300.ShapeCasts S1x300
  shapeCasts_S1_S1x1 : S1.ShapeCasts S1x1
  inb_S4096x300_S4096x300_0_0 : ∀ a, (![0, 0] : Fin 2 → Nat) a + S4096x300.size a ≤ S4096x300.size a
  h_S4096x300 : 0 < S4096x300.numel
  inb_S300x300_S300x300_0_0 : ∀ a, (![0, 0] : Fin 2 → Nat) a + S300x300.size a ≤ S300x300.size a
  h_S300x300 : 0 < S300x300.numel
  shapeCasts_S300x300_S300x300 : S300x300.ShapeCasts S300x300
  inb_S1x300_S1x300_0_0 : ∀ a, (![0, 0] : Fin 2 → Nat) a + S1x300.size a ≤ S1x300.size a
  h_S1x300 : 0 < S1x300.numel
  shapeCasts_S1x300_S1x300 : S1x300.ShapeCasts S1x300
  broadcasts_S1x300_S4096x300 : S1x300.Broadcasts S4096x300
  reduces_S4096x300_S4096 : S4096x300.Reduces [1] S4096
  shapeCasts_S4096_S4096x1 : S4096.ShapeCasts S4096x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  shapeCasts_S524288x1_S524288 : S524288x1.ShapeCasts S524288
  dot_S4096x300_S300x300_S4096x300_1_0_0_1_n_n_wf : DotDims.WF S4096x300 S300x300 S4096x300 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x300.size a ≤ S524288x300.size a
  hwx0_0 : ∀ i : grid0.Coords, EltTy.bits .f32 = 32 ∨ (Rect.block (s := S524288x300) S4096x300.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S300x300.size a ≤ S300x300.size a
  hwx0_1 : ∀ i : grid0.Coords, EltTy.bits .bf16 = 32 ∨ (Rect.block (s := S300x300) S300x300.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x300.size a ≤ S1x300.size a
  hwx0_2 : ∀ i : grid0.Coords, EltTy.bits .f32 = 32 ∨ (Rect.block (s := S1x300) S1x300.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S300x300.size a ≤ S300x300.size a
  hwx0_3 : ∀ i : grid0.Coords, EltTy.bits .bf16 = 32 ∨ (Rect.block (s := S300x300) S300x300.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x300.size a ≤ S1x300.size a
  hwx0_4 : ∀ i : grid0.Coords, EltTy.bits .f32 = 32 ∨ (Rect.block (s := S1x300) S1x300.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x300.size a ≤ S1x300.size a
  hwx0_5 : ∀ i : grid0.Coords, EltTy.bits .f32 = 32 ∨ (Rect.block (s := S1x300) S1x300.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x1.size a ≤ S524288x1.size a
  hwx0_7 : ∀ i : grid0.Coords, EltTy.bits .f32 = 32 ∨ (Rect.block (s := S524288x1) S4096x1.size (cc0_transform_7 i) (hinb0_7 i)).WholeWords (EltTy.packing .f32)

variable [Facts₀]

def dot_S4096x300_S300x300_S4096x300_1_0_0_1_n_n : DotDims S4096x300 S300x300 S4096x300 where
  lhsContracting := [1]
  rhsContracting := [0]
  lhsNonContracting := [0]
  rhsNonContracting := [1]
  lhsBatch := []
  rhsBatch := []
  wf := dot_S4096x300_S300x300_S4096x300_1_0_0_1_n_n_wf

abbrev win0_0 : Pipeline.Window sig grid0 :=
  Pipeline.Window.ofSpec (Memref.whole main_arg0) S4096x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S300x300.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x300.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S300x300.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x300.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x300.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S4096x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S524288x300 : Shape := ⟨2, ![524288, 300]⟩
abbrev S300x300 : Shape := ⟨2, ![300, 300]⟩
abbrev S300 : Shape := ⟨1, ![300]⟩
abbrev S300x1 : Shape := ⟨2, ![300, 1]⟩
abbrev S1 : Shape := ⟨1, ![1]⟩
abbrev S1x300 : Shape := ⟨2, ![1, 300]⟩
abbrev S_ : Shape := ⟨0, ![]⟩
abbrev S524288x1 : Shape := ⟨2, ![524288, 1]⟩
abbrev S1x1 : Shape := ⟨2, ![1, 1]⟩
abbrev S524288 : Shape := ⟨1, ![524288]⟩

abbrev nBuf : Space → Nat
  | .hbm => 26
  | .vmem => 0
  | .smem => 0
  | _ => 0

abbrev bufTy : (tb : Table) → Fin (tcTables nBuf tb) → BufTy
  | .hbm, ⟨0, _⟩ => ⟨S524288x300, .f32⟩
  | .hbm, ⟨1, _⟩ => ⟨S300x300, .f32⟩
  | .hbm, ⟨2, _⟩ => ⟨S300, .f32⟩
  | .hbm, ⟨3, _⟩ => ⟨S300x300, .f32⟩
  | .hbm, ⟨4, _⟩ => ⟨S300, .f32⟩
  | .hbm, ⟨5, _⟩ => ⟨S300x1, .f32⟩
  | .hbm, ⟨6, _⟩ => ⟨S1, .f32⟩
  | .hbm, ⟨7, _⟩ => ⟨S524288x300, .f32⟩
  | .hbm, ⟨8, _⟩ => ⟨S1x300, .f32⟩
  | .hbm, ⟨9, _⟩ => ⟨S524288x300, .f32⟩
  | .hbm, ⟨10, _⟩ => ⟨S524288x300, .f32⟩
  | .hbm, ⟨11, _⟩ => ⟨S_, .f32⟩
  | .hbm, ⟨12, _⟩ => ⟨S524288x300, .f32⟩
  | .hbm, ⟨13, _⟩ => ⟨S524288x300, .f32⟩
  | .hbm, ⟨14, _⟩ => ⟨S524288x300, .f32⟩
  | .hbm, ⟨15, _⟩ => ⟨S1x300, .f32⟩
  | .hbm, ⟨16, _⟩ => ⟨S524288x300, .f32⟩
  | .hbm, ⟨17, _⟩ => ⟨S524288x300, .f32⟩
  | .hbm, ⟨18, _⟩ => ⟨S_, .f32⟩
  | .hbm, ⟨19, _⟩ => ⟨S524288x300, .f32⟩
  | .hbm, ⟨20, _⟩ => ⟨S524288x300, .f32⟩
  | .hbm, ⟨21, _⟩ => ⟨S524288x1, .f32⟩
  | .hbm, ⟨22, _⟩ => ⟨S1x1, .f32⟩
  | .hbm, ⟨23, _⟩ => ⟨S524288x1, .f32⟩
  | .hbm, ⟨24, _⟩ => ⟨S524288x1, .f32⟩
  | .hbm, ⟨25, _⟩ => ⟨S524288, .f32⟩
  | _, _ => ⟨S524288x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call1_cst : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩

abbrev nD : Nat := 1
abbrev τ : Topo := Topo.v7x

variable {F : FTy → Type} [FloatOps F]

class Facts₀ : Prop where
  bcast_S300_S1x300_1 : S300.BroadcastsInDim S1x300 (![1] : Fin 1 → Fin S1x300.rank)
  bcast_S1x300_S524288x300_0_1 : S1x300.BroadcastsInDim S524288x300 (![0, 1] : Fin 2 → Fin S524288x300.rank)
  bcast_S_S524288x300 : S_.BroadcastsInDim S524288x300 (![] : Fin 0 → Fin S524288x300.rank)
  bcast_S1_S1x1_1 : S1.BroadcastsInDim S1x1 (![1] : Fin 1 → Fin S1x1.rank)
  bcast_S1x1_S524288x1_0_1 : S1x1.BroadcastsInDim S524288x1 (![0, 1] : Fin 2 → Fin S524288x1.rank)
  shapeCasts_S524288x1_S524288 : S524288x1.ShapeCasts S524288
  dot_S524288x300_S300x300_S524288x300_1_0_0_1_n_n_wf : DotDims.WF S524288x300 S300x300 S524288x300 [1] [0] [0] [1] [] []
  dot_S524288x300_S300x1_S524288x1_1_0_0_1_n_n_wf : DotDims.WF S524288x300 S300x1 S524288x1 [1] [0] [0] [1] [] []

variable [Facts₀]

def dot_S524288x300_S300x300_S524288x300_1_0_0_1_n_n : DotDims S524288x300 S300x300 S524288x300 where
  lhsContracting := [1]
  rhsContracting := [0]
  lhsNonContracting := [0]
  rhsNonContracting := [1]
  lhsBatch := []
  rhsBatch := []
  wf := dot_S524288x300_S300x300_S524288x300_1_0_0_1_n_n_wf
def dot_S524288x300_S300x1_S524288x1_1_0_0_1_n_n : DotDims S524288x300 S300x1 S524288x1 where
  lhsContracting := [1]
  rhsContracting := [0]
  lhsNonContracting := [0]
  rhsNonContracting := [1]
  lhsBatch := []
  rhsBatch := []
  wf := dot_S524288x300_S300x1_S524288x1_1_0_0_1_n_n_wf

class Facts : Prop extends Facts₀ where

variable [Facts]
-- ==== Proof.Perceptron.lean ====
/-
  A three-layer perceptron on the extended reals, one input row at a time.

  A hidden layer sends a row `r` of 300 numbers to the 300 numbers `max (∑ₖ r k · W k j + b j) 0`; the last layer sends
  a row to the single number `∑ₖ r k · w k + b`. The network is two hidden layers followed by the last one. An output
  entry depends on ONE row of the input matrix, so any block of rows of the result is computed from the same block of
  rows of the input, whatever the blocking: this is why a kernel that walks the rows in tiles and a reference that
  multiplies whole matrices agree.
-/
import Idealize.ShloMosaic.PureOps.Ideal
import Idealize.ShloMosaic.Lib.ValueIdx

noncomputable section

namespace Cert.Perceptron

open Idealize.ShloMosaic Idealize.ShloMosaic.ValueIdx

/-- A hidden layer at output unit `j`: the row's inner product with column `j` of the weights, plus the unit's bias,
    cut off below at zero. -/
def layer (r : Fin 300 → EReal) (W : Fin 300 → Fin 300 → EReal) (b : Fin 300 → EReal) (j : Fin 300) : EReal :=
  max ((∑ k : Fin 300, r k * W k j) + b j) 0

/-- The last layer: the row's inner product with the one weight column, plus the bias. -/
def score (r : Fin 300 → EReal) (w : Fin 300 → EReal) (b : EReal) : EReal :=
  (∑ k : Fin 300, r k * w k) + b

/-- The network on one row. -/
def row (r : Fin 300 → EReal) (W1 : Fin 300 → Fin 300 → EReal) (b1 : Fin 300 → EReal)
    (W2 : Fin 300 → Fin 300 → EReal) (b2 : Fin 300 → EReal) (w3 : Fin 300 → EReal) (b3 : EReal) : EReal :=
  score (layer (layer r W1 b1) W2 b2) w3 b3

/-- The network on row `n` of the input matrix, its weights and biases read off the argument arrays: the two square
    weight matrices entry by entry, the last weight matrix by its one column, the last bias by its one entry. -/
def out (x : (⟨2, ![524288, 300]⟩ : Shape).Idx → EReal) (W1 : (⟨2, ![300, 300]⟩ : Shape).Idx → EReal)
    (b1 : (⟨1, ![300]⟩ : Shape).Idx → EReal) (W2 : (⟨2, ![300, 300]⟩ : Shape).Idx → EReal)
    (b2 : (⟨1, ![300]⟩ : Shape).Idx → EReal) (W3 : (⟨2, ![300, 1]⟩ : Shape).Idx → EReal)
    (b3 : (⟨1, ![1]⟩ : Shape).Idx → EReal) (n : Fin 524288) : EReal :=
  row (fun k => x (ix2 n k)) (fun a j => W1 (ix2 a j)) (fun j => b1 (ix1 j)) (fun a j => W2 (ix2 a j))
    (fun j => b2 (ix1 j)) (fun k => W3 (ix2 k (0 : Fin 1))) (b3 (ix1 (0 : Fin 1)))

/-- The network's value on a row depends only on the numbers it reads: rows, weights and biases that agree entry by
    entry give the same value. -/
theorem row_congr {r r' : Fin 300 → EReal} {W1 W1' : Fin 300 → Fin 300 → EReal} {b1 b1' : Fin 300 → EReal}
    {W2 W2' : Fin 300 → Fin 300 → EReal} {b2 b2' : Fin 300 → EReal} {w3 w3' : Fin 300 → EReal} {b3 b3' : EReal}
    (hr : ∀ k, r k = r' k) (hW1 : ∀ a j, W1 a j = W1' a j) (hb1 : ∀ j, b1 j = b1' j) (hW2 : ∀ a j, W2 a j = W2' a j)
    (hb2 : ∀ j, b2 j = b2' j) (hw3 : ∀ k, w3 k = w3' k) (hb3 : b3 = b3') :
    row r W1 b1 W2 b2 w3 b3 = row r' W1' b1' W2' b2' w3' b3' := by
  obtain rfl : r = r' := funext hr
  obtain rfl : W1 = W1' := funext fun a => funext (hW1 a)
  obtain rfl : b1 = b1' := funext hb1
  obtain rfl : W2 = W2' := funext fun a => funext (hW2 a)
  obtain rfl : b2 = b2' := funext hb2
  obtain rfl : w3 = w3' := funext hw3
  subst hb3
  rfl

end Cert.Perceptron

end
-- ==== Proof.LibColumnCast.lean ====
/-
  A shape cast that appends a unit axis, read at an index.

  Casting a vector of length `a` to an `a × 1` column keeps row-major positions: position `i` of the vector is
  position `i * 1 + 0` of the column. So the column at `(i, u)` — `u` the only coordinate of the unit axis — is
  the vector at `i`. The same holds for casting a `1 × 1` matrix to a vector of length one.
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1]` array cast to `[1]` reads, at its one index, the operand at `(0, 0)`. -/
theorem shapeCast_11_1_apply (x : (⟨2, ![1, 1]⟩ : Shape).Idx → α) (h : (⟨2, ![1, 1]⟩ : Shape).ShapeCasts ⟨1, ![1]⟩)
    (u : Fin 1) : shapeCast ⟨1, ![1]⟩ x h (ix1 u) = x (ix2 (0 : Fin 1) (0 : Fin 1)) :=
  shapeCast_apply x h _ _ (by
    have hu : u.val = 0 := by omega
    rw [Shape.rowMajor_val_two, Shape.rowMajor_val_one]
    show 0 * 1 + 0 = u.val
    rw [hu])

end Cert.LibColumnCast
-- ==== Proof.BodyRows.lean ====
/-
  The kernel body on one tile of 4096 rows, read at a row.

  The body multiplies the tile by the first weight matrix, adds the first bias row, cuts off at zero, multiplies by the
  second weight matrix, adds the second bias row, cuts off at zero, multiplies entry by entry with the last weight row,
  sums along each row, and adds the last bias. Read at row `p` of the tile this is the perceptron applied to row `p`:
  a matrix product into a zero accumulator is a plain inner product of a row with a column, a sum along a row is the
  sum over that row's 300 entries, a one-row array spread over 4096 rows is that row everywhere, and a change of float
  format does nothing on the extended reals.
-/
import proofs.«178247_j86079734546997_2_alg».proof.Proof.Gen.KernelIdeal.Skeleton
import proofs.«178247_j86079734546997_2_alg».proof.Proof.Perceptron
import proofs.«178247_j86079734546997_2_alg».proof.Proof.LibColumnCast
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyRows

open Cert.KernelIdeal Cert.KernelIdeal.Gen Idealize.ShloMosaic Idealize.ShloMosaic.ValueIdx Cert.Perceptron

/-- The operand indices of the tile-by-matrix product at output entry `i` and contraction index `q`: the tile is read at
    row `i 0`, column `q`; the matrix at row `q`, column `i 1`. -/
theorem lhs_row (i : S4096x300.Idx) (q : dot_S4096x300_S300x300_S4096x300_1_0_0_1_n_n.contr.Idx) : (dot_S4096x300_S300x300_S4096x300_1_0_0_1_n_n.lhsIdx i q 0).val = (i 0).val := by
  unfold DotDims.lhsIdx
  rw [dif_neg (show ¬(0 : Fin S4096x300.rank) ∈ dot_S4096x300_S300x300_S4096x300_1_0_0_1_n_n.lhsBatch by decide), dif_pos (show (0 : Fin S4096x300.rank) ∈ dot_S4096x300_S300x300_S4096x300_1_0_0_1_n_n.lhsNonContracting by decide)]
  rfl
theorem lhs_col (i : S4096x300.Idx) (q : dot_S4096x300_S300x300_S4096x300_1_0_0_1_n_n.contr.Idx) : (dot_S4096x300_S300x300_S4096x300_1_0_0_1_n_n.lhsIdx i q 1).val = (q ⟨0, by decide⟩).val :=
  dot_S4096x300_S300x300_S4096x300_1_0_0_1_n_n.lhsIdx_val_of_single rfl i q
theorem rhs_row (i : S4096x300.Idx) (q : dot_S4096x300_S300x300_S4096x300_1_0_0_1_n_n.contr.Idx) : (dot_S4096x300_S300x300_S4096x300_1_0_0_1_n_n.rhsIdx i q 0).val = (q ⟨0, by decide⟩).val :=
  dot_S4096x300_S300x300_S4096x300_1_0_0_1_n_n.rhsIdx_val_of_single rfl i q
theorem rhs_col (i : S4096x300.Idx) (q : dot_S4096x300_S300x300_S4096x300_1_0_0_1_n_n.contr.Idx) : (dot_S4096x300_S300x300_S4096x300_1_0_0_1_n_n.rhsIdx i q 1).val = (i 1).val := by
  unfold DotDims.rhsIdx
  rw [dif_neg (show ¬(1 : Fin S300x300.rank) ∈ dot_S4096x300_S300x300_S4096x300_1_0_0_1_n_n.rhsBatch by decide), dif_pos (show (1 : Fin S300x300.rank) ∈ dot_S4096x300_S300x300_S4096x300_1_0_0_1_n_n.rhsNonContracting by decide)]
  rfl

/-- A 4096 × 300 tile times a 300 × 300 matrix, accumulated from zero, at `(p, j)`: the inner product of row `p` of the
    tile with column `j` of the matrix. -/
theorem product_apply {φ₁ φ₂ : FTy} (A : FVec Ideal S4096x300 φ₁) (B : FVec Ideal S300x300 φ₂) (p : Fin 4096) (j : Fin 300) :
    matmul dot_S4096x300_S300x300_S4096x300_1_0_0_1_n_n none A B (constant S4096x300 .f32 0x00000000#32) (ix2 p j)
      = ∑ k : Fin 300, A (ix2 p k) * B (ix2 k j) := by
  simp only [matmul]
  rw [Ideal.matmul_constant_zero_apply, ← Equiv.sum_comp (contrEquiv1 dot_S4096x300_S300x300_S4096x300_1_0_0_1_n_n 300 rfl rfl).symm]
  refine Finset.sum_congr rfl fun k _ => ?_
  have hk := contrEquiv1_symm_val dot_S4096x300_S300x300_S4096x300_1_0_0_1_n_n 300 rfl rfl k
  have el : dot_S4096x300_S300x300_S4096x300_1_0_0_1_n_n.lhsIdx (ix2 p j) ((contrEquiv1 dot_S4096x300_S300x300_S4096x300_1_0_0_1_n_n 300 rfl rfl).symm k) = ix2 p k := funext fun a => Fin.ext (by
    match a with
    | ⟨0, _⟩ => exact lhs_row _ _
    | ⟨1, _⟩ => exact (lhs_col _ _).trans hk)
  have er : dot_S4096x300_S300x300_S4096x300_1_0_0_1_n_n.rhsIdx (ix2 p j) ((contrEquiv1 dot_S4096x300_S300x300_S4096x300_1_0_0_1_n_n 300 rfl rfl).symm k) = ix2 k j := funext fun a => Fin.ext (by
    match a with
    | ⟨0, _⟩ => exact (rhs_row _ _).trans hk
    | ⟨1, _⟩ => exact rhs_col _ _)
  rw [el, er]

/-- The sum along the rows of a 4096 × 300 tile, at row `p`: the sum of that row's 300 entries. -/
theorem rowSum_apply (X : FVec Ideal S4096x300 .f32) (p : Fin 4096) :
    multiReduction .add [1] S4096 X 0x00000000#32 reduces_S4096x300_S4096 (.inl rfl) rfl (ix1 p)
      = ∑ k : Fin 300, X (ix2 p k) := by
  refine (Ideal.multiReduction_add_single X 0x00000000#32 reduces_S4096x300_S4096 (.inl rfl) rfl (ix1 p)).trans ?_
  refine Finset.sum_congr rfl fun k _ => congrArg X (funext fun a => ?_)
  match a with
  | ⟨0, _⟩ => rfl
  | ⟨1, _⟩ => rfl

/-- One hidden layer of the body at `(p, j)`: the tile's row `p` through the perceptron's hidden layer, the weights
    and the bias row read as the body loads them. -/
theorem hidden_apply {φ₁ : FTy} (A : FVec Ideal S4096x300 φ₁) (B : FVec Ideal S300x300 .bf16) (bias : FVec Ideal S1x300 .f32)
    (p : Fin 4096) (j : Fin 300) :
    maximumf (addf (matmul dot_S4096x300_S300x300_S4096x300_1_0_0_1_n_n none A (shapeCast S300x300 B shapeCasts_S300x300_S300x300) (constant S4096x300 .f32 0x00000000#32))
        (broadcastTo S4096x300 (shapeCast S1x300 bias shapeCasts_S1x300_S1x300) broadcasts_S1x300_S4096x300))
      (broadcast S4096x300 (Scalar.ofBits .f32 0x00000000#32)) (ix2 p j)
    = layer (fun k => A (ix2 p k)) (fun a j => B (ix2 a j)) (fun j => bias (ix2 (0 : Fin 1) j)) j := by
  rw [maximumf_apply, addf_apply, product_apply, shapeCast_self B, broadcastTo_1b_ab_apply, shapeCast_self bias, broadcast_apply]
  show max ((∑ k : Fin 300, A (ix2 p k) * B (ix2 k j)) + bias (ix2 (0 : Fin 1) j)) (Ideal.ofBits .f32 0x00000000#32) = _
  rw [Ideal.ofBits_zero_f32]
  rfl

/-- The body's stored value at row `p` of its tile: the perceptron of row `p` of the loaded tile, over the loaded weight
    matrices, bias rows, last weight row and last bias. -/
theorem pay_apply (v0 : Vec Ideal S4096x300 .f32) (v2 : Vec Ideal S300x300 .bf16) (v5 : Vec Ideal S1x300 .f32)
    (v12 : Vec Ideal S300x300 .bf16) (v15 : Vec Ideal S1x300 .f32) (v21 : Vec Ideal S1x300 .f32) (v27 : Vec Ideal S1x1 .f32)
    (p : Fin 4096) (u : Fin 1) :
    k0_pay1 (F := Ideal) v0 v2 v5 v12 v15 v21 v27 (ix2 p u)
      = row (fun k => v0 (ix2 p k)) (fun a j => v2 (ix2 a j)) (fun j => v5 (ix2 (0 : Fin 1) j))
          (fun a j => v12 (ix2 a j)) (fun j => v15 (ix2 (0 : Fin 1) j)) (fun k => v21 (ix2 (0 : Fin 1) k))
          (v27 (ix2 (0 : Fin 1) (0 : Fin 1))) := by
  obtain rfl : u = 0 := Subsingleton.elim u 0
  unfold k0_pay1
  dsimp only
  rw [addf_apply, LibColumnCast.shapeCast_a_a1_apply, rowSum_apply, broadcastTo_1b_ab_apply, shapeCast_self v27]
  unfold row score
  refine congrArg (· + v27 (ix2 (0 : Fin 1) (0 : Fin 1))) (Finset.sum_congr rfl fun k _ => ?_)
  rw [mulf_apply, broadcastTo_1b_ab_apply, shapeCast_self v21, hidden_apply]
  refine congrArg (fun r => layer r (fun a j => v12 (ix2 a j)) (fun j => v15 (ix2 (0 : Fin 1) j)) k * v21 (ix2 (0 : Fin 1) k)) ?_
  funext k'
  rw [truncf_apply, hidden_apply]
  rfl

end Cert.KernelIdeal.BodyRows

end
-- ==== Proof.EntryArrays.lean ====
/-
  What the region finds in its windows' arrays, and each window's block read at an index.

  Before the region the program only re-lays its arguments: the two square weight matrices change float format, which is
  nothing on the extended reals; the two bias vectors and the one-column last weight matrix become single rows of 300;
  the one-entry last bias becomes a 1 × 1 array. The input matrix is staged in tiles of 4096 rows, tile `t` holding
  rows `4096 t … 4096 t + 4095`; every other window's block is its whole array at every grid point. So at every grid
  point the body reads, through its seven input windows, row block `t` of the input matrix and the seven arguments'
  entries themselves.
-/
import proofs.«178247_j86079734546997_2_alg».proof.Proof.Gen.KernelIdeal.Frame
import proofs.«178247_j86079734546997_2_alg».proof.Proof.LibColumnCast
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-! ## The index maps over the grid -/

/-- The input matrix's window and the output's window sit at row block `t` at grid point `t`. -/
theorem idx_moving : ∀ t : Fin cfg0.N,
    (win0_0.index t (0 : Fin 2) = t.val ∧ win0_0.index t (1 : Fin 2) = 0)
    ∧ (win0_7.index t (0 : Fin 2) = t.val ∧ win0_7.index t (1 : Fin 2) = 0) :=
  (by decide +kernel : ∀ t : Fin grid0.N, _)

/-- The six other windows sit at block `(0, 0)` at every grid point. -/
theorem idx_whole : ∀ t : Fin cfg0.N,
    (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

/-! ## The arrays at the region's entry -/

/-- The first weight matrix, as the region finds it: the argument in the narrower float format. -/
theorem v0_entry (c : Dev nD) :
    (V m c main_v0 : S300x300.Idx → Elt Ideal .bf16)
      = (truncf (F := Ideal) .bf16 (m ((c : Thread nD τ).loc main_arg1) : FVec Ideal S300x300 .f32) bitsLt_bf16_f32 : FVec Ideal S300x300 .bf16) := by
  show StableHlo.after hostOps0 (fun b => m (c, b)) (Proc.devRef .tc main_v0) = _
  after_results
/-- The second weight matrix likewise. -/
theorem v1_entry (c : Dev nD) :
    (V m c main_v1 : S300x300.Idx → Elt Ideal .bf16)
      = (truncf (F := Ideal) .bf16 (m ((c : Thread nD τ).loc main_arg3) : FVec Ideal S300x300 .f32) bitsLt_bf16_f32 : FVec Ideal S300x300 .bf16) := by
  show StableHlo.after hostOps0 (fun b => m (c, b)) (Proc.devRef .tc main_v1) = _
  after_results
/-- The last weight matrix, as the region finds it: its one column laid out as one row. -/
theorem v2_entry (c : Dev nD) :
    (V m c main_v2 : S1x300.Idx → Elt Ideal .f32) = shapeCast S1x300 (m ((c : Thread nD τ).loc main_arg5)) shapeCasts_S300x1_S1x300 := by
  show StableHlo.after hostOps0 (fun b => m (c, b)) (Proc.devRef .tc main_v2) = _
  after_results
  rfl
/-- The first bias, as the region finds it: the vector as one row. -/
theorem v3_entry (c : Dev nD) :
    (V m c main_v3 : S1x300.Idx → Elt Ideal .f32) = shapeCast S1x300 (m ((c : Thread nD τ).loc main_arg2)) shapeCasts_S300_S1x300 := by
  show StableHlo.after hostOps0 (fun b => m (c, b)) (Proc.devRef .tc main_v3) = _
  after_results
  rfl
/-- The second bias likewise. -/
theorem v4_entry (c : Dev nD) :
    (V m c main_v4 : S1x300.Idx → Elt Ideal .f32) = shapeCast S1x300 (m ((c : Thread nD τ).loc main_arg4)) shapeCasts_S300_S1x300 := by
  show StableHlo.after hostOps0 (fun b => m (c, b)) (Proc.devRef .tc main_v4) = _
  after_results
  rfl
/-- The last bias, as the region finds it: the one entry as a 1 × 1 array. -/
theorem v5_entry (c : Dev nD) :
    (V m c main_v5 : S1x1.Idx → Elt Ideal .f32) = shapeCast S1x1 (m ((c : Thread nD τ).loc main_arg6)) shapeCasts_S1_S1x1 := by
  show StableHlo.after hostOps0 (fun b => m (c, b)) (Proc.devRef .tc main_v5) = _
  after_results
  rfl

/-! ## A window's block at a grid point, read at an index -/

/-- Tile `t` of the input matrix at `(p, k)` is the input matrix at row `4096 t + p`, column `k`. -/
theorem tile_apply (c : Dev nD) (t : Fin cfg0.N) (p : Fin 4096) (k : Fin 300) (n : Fin 524288) (hn : n.val = t.val * 4096 + p.val) :
    (iblk m c 0 t : Vec Ideal S4096x300 .f32) (ix2 p k)
      = (m ((c : Thread nD τ).loc main_arg0) : S524288x300.Idx → Elt Ideal .f32) (ix2 n k) := by
  obtain ⟨⟨h0, h1⟩, -⟩ := idx_moving t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 2) * 4096 + 1 * p.val = n.val; rw [h0, hn]; omega
  | ⟨1, _⟩ => show win0_0.index t (1 : Fin 2) * 300 + 1 * k.val = k.val; rw [h1]; omega

/-- The first weight matrix's block at any grid point is its whole array. -/
theorem blk1_apply (c : Dev nD) (t : Fin cfg0.N) (y : S300x300.Idx) :
    (iblk m c 1 t : Vec Ideal S300x300 .bf16) y = (V m c main_v0 : S300x300.Idx → Elt Ideal .bf16) y := by
  have h0 : win0_1.index t (0 : Fin 2) = 0 := (idx_whole t).1.1
  have h1 : win0_1.index t (1 : Fin 2) = 0 := (idx_whole t).1.2
  unfold iblk
  rw [View.read_apply]
  show V m c main_v0 _ = _
  refine congrArg (V m c main_v0) (funext fun a => Fin.ext ?_)
  match a with
  | ⟨0, _⟩ => show win0_1.index t (0 : Fin 2) * S300x300.size (0 : Fin 2) + 1 * (y 0).val = (y 0).val; rw [h0]; omega
  | ⟨1, _⟩ => show win0_1.index t (1 : Fin 2) * S300x300.size (1 : Fin 2) + 1 * (y 1).val = (y 1).val; rw [h1]; omega

/-- The first bias row's block at any grid point is its whole array. -/
theorem blk2_apply (c : Dev nD) (t : Fin cfg0.N) (y : S1x300.Idx) :
    (iblk m c 2 t : Vec Ideal S1x300 .f32) y = (V m c main_v3 : S1x300.Idx → Elt Ideal .f32) y := by
  have h0 : win0_2.index t (0 : Fin 2) = 0 := (idx_whole t).2.1.1
  have h1 : win0_2.index t (1 : Fin 2) = 0 := (idx_whole t).2.1.2
  unfold iblk
  rw [View.read_apply]
  show V m c main_v3 _ = _
  refine congrArg (V m c main_v3) (funext fun a => Fin.ext ?_)
  match a with
  | ⟨0, _⟩ => show win0_2.index t (0 : Fin 2) * S1x300.size (0 : Fin 2) + 1 * (y 0).val = (y 0).val; rw [h0]; omega
  | ⟨1, _⟩ => show win0_2.index t (1 : Fin 2) * S1x300.size (1 : Fin 2) + 1 * (y 1).val = (y 1).val; rw [h1]; omega

/-- The second weight matrix's block at any grid point is its whole array. -/
theorem blk3_apply (c : Dev nD) (t : Fin cfg0.N) (y : S300x300.Idx) :
    (iblk m c 3 t : Vec Ideal S300x300 .bf16) y = (V m c main_v1 : S300x300.Idx → Elt Ideal .bf16) y := by
  have h0 : win0_3.index t (0 : Fin 2) = 0 := (idx_whole t).2.2.1.1
  have h1 : win0_3.index t (1 : Fin 2) = 0 := (idx_whole t).2.2.1.2
  unfold iblk
  rw [View.read_apply]
  show V m c main_v1 _ = _
  refine congrArg (V m c main_v1) (funext fun a => Fin.ext ?_)
  match a with
  | ⟨0, _⟩ => show win0_3.index t (0 : Fin 2) * S300x300.size (0 : Fin 2) + 1 * (y 0).val = (y 0).val; rw [h0]; omega
  | ⟨1, _⟩ => show win0_3.index t (1 : Fin 2) * S300x300.size (1 : Fin 2) + 1 * (y 1).val = (y 1).val; rw [h1]; omega

/-- The second bias row's block at any grid point is its whole array. -/
theorem blk4_apply (c : Dev nD) (t : Fin cfg0.N) (y : S1x300.Idx) :
    (iblk m c 4 t : Vec Ideal S1x300 .f32) y = (V m c main_v4 : S1x300.Idx → Elt Ideal .f32) y := by
  have h0 : win0_4.index t (0 : Fin 2) = 0 := (idx_whole t).2.2.2.1.1
  have h1 : win0_4.index t (1 : Fin 2) = 0 := (idx_whole t).2.2.2.1.2
  unfold iblk
  rw [View.read_apply]
  show V m c main_v4 _ = _
  refine congrArg (V m c main_v4) (funext fun a => Fin.ext ?_)
  match a with
  | ⟨0, _⟩ => show win0_4.index t (0 : Fin 2) * S1x300.size (0 : Fin 2) + 1 * (y 0).val = (y 0).val; rw [h0]; omega
  | ⟨1, _⟩ => show win0_4.index t (1 : Fin 2) * S1x300.size (1 : Fin 2) + 1 * (y 1).val = (y 1).val; rw [h1]; omega

/-- The last weight row's block at any grid point is its whole array. -/
theorem blk5_apply (c : Dev nD) (t : Fin cfg0.N) (y : S1x300.Idx) :
    (iblk m c 5 t : Vec Ideal S1x300 .f32) y = (V m c main_v2 : S1x300.Idx → Elt Ideal .f32) y := by
  have h0 : win0_5.index t (0 : Fin 2) = 0 := (idx_whole t).2.2.2.2.1.1
  have h1 : win0_5.index t (1 : Fin 2) = 0 := (idx_whole t).2.2.2.2.1.2
  unfold iblk
  rw [View.read_apply]
  show V m c main_v2 _ = _
  refine congrArg (V m c main_v2) (funext fun a => Fin.ext ?_)
  match a with
  | ⟨0, _⟩ => show win0_5.index t (0 : Fin 2) * S1x300.size (0 : Fin 2) + 1 * (y 0).val = (y 0).val; rw [h0]; omega
  | ⟨1, _⟩ => show win0_5.index t (1 : Fin 2) * S1x300.size (1 : Fin 2) + 1 * (y 1).val = (y 1).val; rw [h1]; omega

/-- The last bias's block at any grid point is its whole array. -/
theorem blk6_apply (c : Dev nD) (t : Fin cfg0.N) (y : S1x1.Idx) :
    (iblk m c 6 t : Vec Ideal S1x1 .f32) y = (V m c main_v5 : S1x1.Idx → Elt Ideal .f32) y := by
  have h0 : win0_6.index t (0 : Fin 2) = 0 := (idx_whole t).2.2.2.2.2.1
  have h1 : win0_6.index t (1 : Fin 2) = 0 := (idx_whole t).2.2.2.2.2.2
  unfold iblk
  rw [View.read_apply]
  show V m c main_v5 _ = _
  refine congrArg (V m c main_v5) (funext fun a => Fin.ext ?_)
  match a with
  | ⟨0, _⟩ => show win0_6.index t (0 : Fin 2) * S1x1.size (0 : Fin 2) + 1 * (y 0).val = (y 0).val; rw [h0]; omega
  | ⟨1, _⟩ => show win0_6.index t (1 : Fin 2) * S1x1.size (1 : Fin 2) + 1 * (y 1).val = (y 1).val; rw [h1]; omega

/-! ## The same blocks in terms of the arguments -/

/-- The first weight matrix as the body reads it, entry by entry: the argument's entries. -/
theorem w1_apply (c : Dev nD) (t : Fin cfg0.N) (a j : Fin 300) :
    (iblk m c 1 t : Vec Ideal S300x300 .bf16) (ix2 a j)
      = (m ((c : Thread nD τ).loc main_arg1) : S300x300.Idx → Elt Ideal .f32) (ix2 a j) := by
  rw [blk1_apply, v0_entry]
  rfl
/-- The second weight matrix likewise. -/
theorem w2_apply (c : Dev nD) (t : Fin cfg0.N) (a j : Fin 300) :
    (iblk m c 3 t : Vec Ideal S300x300 .bf16) (ix2 a j)
      = (m ((c : Thread nD τ).loc main_arg3) : S300x300.Idx → Elt Ideal .f32) (ix2 a j) := by
  rw [blk3_apply, v1_entry]
  rfl
/-- The first bias row at column `j`: the bias vector at `j`. -/
theorem b1_apply (c : Dev nD) (t : Fin cfg0.N) (j : Fin 300) :
    (iblk m c 2 t : Vec Ideal S1x300 .f32) (ix2 (0 : Fin 1) j)
      = (m ((c : Thread nD τ).loc main_arg2) : S300.Idx → Elt Ideal .f32) (ix1 j) := by
  rw [blk2_apply, v3_entry]
  exact shapeCast_a_1a_apply _ _ _ _
/-- The second bias row likewise. -/
theorem b2_apply (c : Dev nD) (t : Fin cfg0.N) (j : Fin 300) :
    (iblk m c 4 t : Vec Ideal S1x300 .f32) (ix2 (0 : Fin 1) j)
      = (m ((c : Thread nD τ).loc main_arg4) : S300.Idx → Elt Ideal .f32) (ix1 j) := by
  rw [blk4_apply, v4_entry]
  exact shapeCast_a_1a_apply _ _ _ _
/-- The last weight row at column `k`: the last weight matrix's one column at row `k` (a 300 × 1 array laid out as
    1 × 300 keeps its entries' order). -/
theorem w3_apply (c : Dev nD) (t : Fin cfg0.N) (k : Fin 300) :
    (iblk m c 5 t : Vec Ideal S1x300 .f32) (ix2 (0 : Fin 1) k)
      = (m ((c : Thread nD τ).loc main_arg5) : S300x1.Idx → Elt Ideal .f32) (ix2 k (0 : Fin 1)) := by
  rw [blk5_apply, v2_entry]
  refine shapeCast_apply _ shapeCasts_S300x1_S1x300 _ _ ?_
  rw [Shape.rowMajor_val_two, Shape.rowMajor_val_two]
  show k.val * 1 + 0 = 0 * 300 + k.val
  omega
/-- The last bias as the body reads it: the argument's one entry. -/
theorem b3_apply (c : Dev nD) (t : Fin cfg0.N) :
    (iblk m c 6 t : Vec Ideal S1x1 .f32) (ix2 (0 : Fin 1) (0 : Fin 1))
      = (m ((c : Thread nD τ).loc main_arg6) : S1.Idx → Elt Ideal .f32) (ix1 (0 : Fin 1)) := by
  rw [blk6_apply, v5_entry]
  exact shapeCast_a_1a_apply _ _ _ _

end Cert.KernelIdeal.Entry

end
-- ==== Proof.KernelResult.lean ====
/-
  The kernel program's result array.

  At grid point `t` the body leaves, at row `p` of its output tile, the perceptron of row `p` of input tile `t` — which
  is row `4096 t + p` of the input matrix — over the arguments' own weights and biases; the tile is written back as rows
  `4096 t … 4096 t + 4095` of a 524288 × 1 column. The 128 tiles cover the column, row `r` lying in tile `r / 4096`, so
  after the region the column holds the perceptron of every row. The program's last step drops the unit axis, which
  keeps the entries in order: the result vector at `n` is the perceptron of row `n`.
-/
import proofs.«178247_j86079734546997_2_alg».proof.Proof.Gen.KernelIdeal.Frame
import proofs.«178247_j86079734546997_2_alg».proof.Proof.Perceptron
import proofs.«178247_j86079734546997_2_alg».proof.Proof.BodyRows
import proofs.«178247_j86079734546997_2_alg».proof.Proof.EntryArrays
import Idealize.ShloMosaic.Lib.Pipeline.Value
import Idealize.ShloMosaic.Lib.ValueIdx
import Idealize.ShloMosaic.Lib.StableHlo.Run

noncomputable section

namespace Cert.KernelIdeal.Result

open Cert.KernelIdeal Cert.KernelIdeal.Gen Idealize.ShloMosaic Idealize.ShloMosaic.TcCoe Idealize.SL.Sem
open Idealize.ShloMosaic.ValueIdx Idealize.ShloMosaic.StableHlo
open Cert.Perceptron Cert.KernelIdeal.Entry Cert.KernelIdeal.BodyRows

variable (m : (ℓ : Loc nD τ sig) → Buf (Elt Ideal) ℓ) (ρ : Dev nD → PrngReg)

/-- The perceptron of row `n` of the input matrix as launched, over the weights and biases as launched. -/
abbrev score (c : Dev nD) (n : Fin 524288) : EReal :=
  out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) n

/-- The same as a 524288 × 1 column: what the output window's array ends holding. -/
abbrev column (c : Dev nD) : S524288x1.Idx → Elt Ideal .f32 := fun i => score m c (i 0)

/-- The same as a vector: what the program returns. -/
abbrev result (c : Dev nD) : S524288.Idx → Elt Ideal .f32 := fun i => score m c (i 0)

theorem hz : (![0, 0] : Fin 2 → Nat) = fun _ => 0 := funext fun a => by fin_cases a <;> rfl

/-- What the body leaves at row `p` of its output tile: the perceptron of row `p` of the tile it was given. -/
theorem out_apply (x0 : Vec Ideal S4096x300 .f32) (x1 : Vec Ideal S300x300 .bf16) (x2 : Vec Ideal S1x300 .f32)
    (x3 : Vec Ideal S300x300 .bf16) (x4 : Vec Ideal S1x300 .f32) (x5 : Vec Ideal S1x300 .f32) (x6 : Vec Ideal S1x1 .f32)
    (p : Fin 4096) (u : Fin 1) :
    out0_7 (F := Ideal) x0 x1 x2 x3 x4 x5 x6 (ix2 p u)
      = row (fun k => x0 (ix2 p k)) (fun a j => x1 (ix2 a j)) (fun j => x2 (ix2 (0 : Fin 1) j))
          (fun a j => x3 (ix2 a j)) (fun j => x4 (ix2 (0 : Fin 1) j)) (fun k => x5 (ix2 (0 : Fin 1) k))
          (x6 (ix2 (0 : Fin 1) (0 : Fin 1))) := by
  unfold out0_7
  rw [View.canon_unit_zero hz]
  simp only [View.ld_unit_zero (S := S4096x300) hz, View.ld_unit_zero (S := S300x300) hz,
    View.ld_unit_zero (S := S1x300) hz, View.ld_unit_zero (S := S1x1) hz]
  exact pay_apply x0 x1 x2 x3 x4 x5 x6 p u

/-- What grid point `t` writes back is block `t` of the column of perceptron values. -/
theorem flushed_eq (c : Dev nD) (t : Fin cfg0.N) :
    (dats m 0 c).flushed 7 t = ((cfg0.win 7).blk t).view.read (Elt Ideal) (column m c) := by
  have hN : cfg0.N = 128 := N_0
  obtain ⟨-, h0, h1⟩ := idx_moving t
  show (cfg0.win 7).cut (grid0.coords t) ((dats m 0 c).after 7 t) = _
  rw [after0_7]
  funext y
  obtain ⟨p, u, rfl⟩ : ∃ (p : Fin 4096) (u : Fin 1), y = ix2 p u := ⟨y 0, y 1, eq_ix2 y⟩
  have hlt : t.val * 4096 + p.val < 524288 := by have := t.isLt; have := p.isLt; omega
  have he : ((cfg0.win 7).blk t).view.emb (ix2 p u) = ix2 (⟨t.val * 4096 + p.val, hlt⟩ : Fin 524288) u :=
    funext fun a => Fin.ext (by
      match a with
      | ⟨0, _⟩ => show win0_7.index t (0 : Fin 2) * 4096 + 1 * p.val = t.val * 4096 + p.val; rw [h0]; omega
      | ⟨1, _⟩ => show win0_7.index t (1 : Fin 2) * 1 + 1 * u.val = u.val; rw [h1]; omega)
  show out0_7 (iblk m c 0 t) (iblk m c 1 t) (iblk m c 2 t) (iblk m c 3 t) (iblk m c 4 t) (iblk m c 5 t) (iblk m c 6 t) (ix2 p u)
    = column m c (((cfg0.win 7).blk t).view.emb (ix2 p u))
  rw [he]
  refine (out_apply (iblk m c 0 t) (iblk m c 1 t) (iblk m c 2 t) (iblk m c 3 t) (iblk m c 4 t) (iblk m c 5 t) (iblk m c 6 t) p u).trans ?_
  exact row_congr (fun k => tile_apply m c t p k ⟨t.val * 4096 + p.val, hlt⟩ rfl) (fun a j => w1_apply m c t a j)
    (fun j => b1_apply m c t j) (fun a j => w2_apply m c t a j) (fun j => b2_apply m c t j)
    (fun k => w3_apply m c t k) (b3_apply m c t)

/-- An entry of the column lies in grid point `t`'s block iff its row lies among the block's 4096 rows. -/
theorem mem_blk (t : Fin cfg0.N) (i : S524288x1.Idx) :
    i ∈ ((cfg0.win 7).blk t).view.set ↔ ∀ a : Fin 2, win0_7.index t a * S4096x1.size a ≤ (i a).val
      ∧ (i a).val < win0_7.index t a * S4096x1.size a + S4096x1.size a := by
  show i ∈ ((View.whole main_v6).slice (win0_7.rect t)).set ↔ _
  rw [View.set_slice_whole, Rect.mem_set_unit]
  exact Iff.rfl

/-- Every entry of the column lies in some grid point's block: row `r` in that of point `r / 4096`. -/
theorem cover (i : S524288x1.Idx) :
    ∃ t : Fin cfg0.N, (cfg0.win 7).flush t = true ∧ i ∈ ((cfg0.win 7).blk t).view.set := by
  have hN : cfg0.N = 128 := N_0
  have hi0 : (i 0).val < 524288 := (i 0).isLt
  have hi1 : (i 1).val < 1 := (i 1).isLt
  obtain ⟨t, ht⟩ : ∃ t : Fin cfg0.N, t.val = (i 0).val / 4096 := ⟨⟨(i 0).val / 4096, by rw [hN]; omega⟩, rfl⟩
  obtain ⟨-, h0, h1⟩ := idx_moving t
  refine ⟨t, flush0_7 t, ?_⟩
  rw [mem_blk]
  intro a
  match a with
  | ⟨0, _⟩ =>
    show win0_7.index t (0 : Fin 2) * 4096 ≤ (i 0).val ∧ (i 0).val < win0_7.index t (0 : Fin 2) * 4096 + 4096
    rw [h0, ht]; omega
  | ⟨1, _⟩ =>
    show win0_7.index t (1 : Fin 2) * 1 ≤ (i 1).val ∧ (i 1).val < win0_7.index t (1 : Fin 2) * 1 + 1
    rw [h1]; omega

/-- After the region the output window's array is the column of perceptron values. -/
theorem final (c : Dev nD) : (dats m 0 c).arrAt 7 cfg0.N = column m c :=
  (dats m 0 c).arrAt_eq_of_cover 7 (column m c) (fun t _ => flushed_eq m c t) cover

/-- The program's last step, the column with its unit axis dropped, is the vector of perceptron values. -/
theorem tail_eq (c : Dev nD) :
    Pipeline.afterTail₀ cfgs (dats m) 0 (V0 m) [hostOps1] c main_v7 = result m c := by
  unfold Pipeline.afterTail₀
  show StableHlo.after hostOps1 _ (Proc.devRef .tc main_v7) = _
  after_results
  have hw : Pipeline.withArrays (cfgs 0).spec c (V0 m c) (fun w => (dats m 0 c).arrAt w (cfgs 0).N) (Proc.devRef .tc main_v6)
      = column m c :=
    (Pipeline.withArrays_arr spec0 launch0.win.arr_inj c _ _ 7).trans (final m c)
  rw [hw]
  funext i
  obtain ⟨n, rfl⟩ : ∃ n : Fin 524288, i = ix1 n := ⟨i 0, eq_ix1 i⟩
  show shapeCast S524288 (column m c) shapeCasts_S524288x1_S524288 (ix1 n) = score m c n
  exact shapeCast_apply (column m c) shapeCasts_S524288x1_S524288 (ix1 n) (ix2 n (0 : Fin 1)) (by
    rw [Shape.rowMajor_val_two, Shape.rowMajor_val_one]
    show n.val * 1 + 0 = n.val
    omega)

/-- The run of the kernel program: every weakly fair execution ends with the result vector at the perceptron of each row
    of the input, and the arguments as launched. -/
theorem run : θ_run defs (onTc (τ := τ) (main (F := Ideal))) ⟨m, fun _ => 0, ρ⟩ (fun r => ∀ c : Dev nD,
      r.2.mem ((c.tc : Thread nD τ).loc main_v7) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
      ((h c).2 main_v7 (Pipeline.mem_restRefs_of main_v7 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩) (run_main m ρ)

end Cert.KernelIdeal.Result

end
-- ==== Proof.ReferenceRows.lean ====
/-
  The reference program read at a row.

  The reference multiplies the whole input matrix by the first weight matrix, adds the first bias to every row, cuts
  off at zero, does the same with the second weights and bias, multiplies by the one-column last weight matrix, adds
  the last bias, and drops the unit axis. Its two hidden arrays at `(n, j)` are the perceptron's hidden layers of row
  `n` at unit `j`, and its result at `n` is the perceptron of row `n`: each matrix product at an entry is a row's inner
  product with a column, each bias is spread along the rows, and the cut-off is against the zero word.
-/
import proofs.«178247_j86079734546997_2_alg».proof.Proof.Gen.ReferenceIdeal.Read
import proofs.«178247_j86079734546997_2_alg».proof.Proof.Perceptron

noncomputable section

namespace Cert.ReferenceIdeal.Rows

open Cert.ReferenceIdeal Cert.ReferenceIdeal.Read Idealize.ShloMosaic Idealize.ShloMosaic.ValueIdx Cert.Perceptron

variable (x0 : (⟨S524288x300, .f32⟩ : BufTy).Contents (Elt Ideal)) (x1 : (⟨S300x300, .f32⟩ : BufTy).Contents (Elt Ideal))
  (x2 : (⟨S300, .f32⟩ : BufTy).Contents (Elt Ideal)) (x3 : (⟨S300x300, .f32⟩ : BufTy).Contents (Elt Ideal))
  (x4 : (⟨S300, .f32⟩ : BufTy).Contents (Elt Ideal)) (x5 : (⟨S300x1, .f32⟩ : BufTy).Contents (Elt Ideal))
  (x6 : (⟨S1, .f32⟩ : BufTy).Contents (Elt Ideal))

/-- The first hidden array at `(n, j)`: the first layer of row `n` of the input at unit `j`. -/
theorem hidden1_apply (n : Fin 524288) (j : Fin 300) :
    val_main_v4 (F := Ideal) x0 x1 x2 (ix2 n j)
      = layer (fun k => x0 (ix2 n k)) (fun a j => x1 (ix2 a j)) (fun j => x2 (ix1 j)) j := by
  have el : ∀ k : Fin 300, lidx_main_v0 (ix2 n j) k = ix2 n k := fun k => funext fun a => by
    match a with | ⟨0, _⟩ => rfl | ⟨1, _⟩ => rfl
  have er : ∀ k : Fin 300, ridx_main_v0 (ix2 n j) k = ix2 k j := fun k => funext fun a => by
    match a with | ⟨0, _⟩ => rfl | ⟨1, _⟩ => rfl
  have eb : idx_main_v1 (idx_main_v2 (ix2 n j)) = ix1 j := funext fun a => by
    match a with | ⟨0, _⟩ => rfl
  rw [val_main_v4_apply, val_main_v3_apply, val_main_v0_apply, val_main_v2_apply, val_main_v1_apply,
    val_main_call0_v0_apply, val_main_call0_cst_apply]
  simp only [el, er, eb]
  show max ((∑ k : Fin 300, x0 (ix2 n k) * x1 (ix2 k j)) + x2 (ix1 j)) (Ideal.ofBits .f32 0x00000000#32) = _
  rw [Ideal.ofBits_zero_f32]
  rfl

/-- The second hidden array at `(n, j)`: the second layer, of the first layer of row `n`, at unit `j`. -/
theorem hidden2_apply (n : Fin 524288) (j : Fin 300) :
    val_main_v9 (F := Ideal) x0 x1 x2 x3 x4 (ix2 n j)
      = layer (layer (fun k => x0 (ix2 n k)) (fun a j => x1 (ix2 a j)) (fun j => x2 (ix1 j)))
          (fun a j => x3 (ix2 a j)) (fun j => x4 (ix1 j)) j := by
  have el : ∀ k : Fin 300, lidx_main_v5 (ix2 n j) k = ix2 n k := fun k => funext fun a => by
    match a with | ⟨0, _⟩ => rfl | ⟨1, _⟩ => rfl
  have er : ∀ k : Fin 300, ridx_main_v5 (ix2 n j) k = ix2 k j := fun k => funext fun a => by
    match a with | ⟨0, _⟩ => rfl | ⟨1, _⟩ => rfl
  have eb : idx_main_v6 (idx_main_v7 (ix2 n j)) = ix1 j := funext fun a => by
    match a with | ⟨0, _⟩ => rfl
  rw [val_main_v9_apply, val_main_v8_apply, val_main_v5_apply, val_main_v7_apply, val_main_v6_apply,
    val_main_call1_v0_apply, val_main_call1_cst_apply]
  simp only [el, er, eb, hidden1_apply]
  show max ((∑ k : Fin 300, layer (fun k => x0 (ix2 n k)) (fun a j => x1 (ix2 a j)) (fun j => x2 (ix1 j)) k * x3 (ix2 k j))
    + x4 (ix1 j)) (Ideal.ofBits .f32 0x00000000#32) = _
  rw [Ideal.ofBits_zero_f32]
  rfl

/-- The reference's result at `n`: the perceptron of row `n` of the input. -/
theorem result_apply (i : S524288.Idx) :
    val_main_v14 (F := Ideal) x0 x1 x2 x3 x4 x5 x6 i = out x0 x1 x2 x3 x4 x5 x6 (i 0) := by
  obtain ⟨n, rfl⟩ : ∃ n : Fin 524288, i = ix1 n := ⟨i 0, eq_ix1 i⟩
  have ec : idx_main_v14 (ix1 n) = ix2 n (0 : Fin 1) := funext fun a => by
    match a with | ⟨0, _⟩ => exact Fin.ext (Nat.div_one _) | ⟨1, _⟩ => rfl
  have el : ∀ k : Fin 300, lidx_main_v10 (ix2 n (0 : Fin 1)) k = ix2 n k := fun k => funext fun a => by
    match a with | ⟨0, _⟩ => rfl | ⟨1, _⟩ => rfl
  have er : ∀ k : Fin 300, ridx_main_v10 (ix2 n (0 : Fin 1)) k = ix2 k (0 : Fin 1) := fun k => funext fun a => by
    match a with | ⟨0, _⟩ => rfl | ⟨1, _⟩ => rfl
  have eb : idx_main_v11 (idx_main_v12 (ix2 n (0 : Fin 1))) = ix1 (0 : Fin 1) := funext fun a => by
    match a with | ⟨0, _⟩ => rfl
  rw [val_main_v14_apply, ec, val_main_v13_apply, val_main_v10_apply, val_main_v12_apply, val_main_v11_apply]
  simp only [el, er, eb, hidden2_apply]
  rfl

/-- So the reference's result array is the perceptron, row by row. -/
theorem result_eq :
    val_main_v14 (F := Ideal) x0 x1 x2 x3 x4 x5 x6 = fun i => out x0 x1 x2 x3 x4 x5 x6 (i 0) :=
  funext fun i => result_apply x0 x1 x2 x3 x4 x5 x6 i

end Cert.ReferenceIdeal.Rows

end
-- ==== Proof.lean ====
/- The certificate of a three-layer perceptron applied to every row of a 524288 × 300 matrix.

   Both programs compute, for each row `x` of the input, `relu(relu(x·W1 + b1)·W2 + b2)·W3 + b3`, a single number per row.
   The reference multiplies whole matrices. The kernel walks the rows in 128 tiles of 4096, and on each tile forms the
   two hidden layers by matrix products accumulated from zero, then takes the last product as an entry-by-entry product
   with the one weight column laid out as a row, summed along each row. On the extended reals a matrix product at an
   entry is the inner product of a row with a column whatever the tiling, a sum along a row is that row's finite sum,
   and the change of float format on the way into the products does nothing; so both results at `n` are the same
   expression in row `n` of the input and in the weights and biases (Proof/Perceptron.lean). No law beyond `0 + s = s`
   joins the two sides, so the finiteness of the inputs is never used.

   Proof/BodyRows.lean reads the kernel body at a row of its tile; Proof/EntryArrays.lean reads what the region finds
   in each window (the arguments re-laid) and each block at an index; Proof/KernelResult.lean goes from the tiles to the
   whole column and through the dropped unit axis to the kernel program's run; Proof/ReferenceRows.lean reads the
   reference's stages at a row. The three frames are the programs' runs with the result forgotten; the kernel's
   idealization rewrote nothing, so there is nothing to preserve. -/
import proofs.«178247_j86079734546997_2_alg».proof.Defs
import proofs.«178247_j86079734546997_2_alg».proof.Proof.Gen.Kernel
import proofs.«178247_j86079734546997_2_alg».proof.Proof.Gen.Kernel.Skeleton
import proofs.«178247_j86079734546997_2_alg».proof.Proof.Gen.Kernel.Launch
import proofs.«178247_j86079734546997_2_alg».proof.Proof.Gen.Kernel.Points
import proofs.«178247_j86079734546997_2_alg».proof.Proof.Gen.Kernel.Frame
import proofs.«178247_j86079734546997_2_alg».proof.Proof.Gen.KernelIdeal
import proofs.«178247_j86079734546997_2_alg».proof.Proof.Gen.KernelIdeal.Skeleton
import proofs.«178247_j86079734546997_2_alg».proof.Proof.Gen.KernelIdeal.Launch
import proofs.«178247_j86079734546997_2_alg».proof.Proof.Gen.KernelIdeal.Points
import proofs.«178247_j86079734546997_2_alg».proof.Proof.Gen.KernelIdeal.Frame
import proofs.«178247_j86079734546997_2_alg».proof.Proof.Gen.ReferenceIdeal
import proofs.«178247_j86079734546997_2_alg».proof.Proof.Gen.ReferenceIdeal.Run
import proofs.«178247_j86079734546997_2_alg».proof.Proof.Gen.ReferenceIdeal.Read
import proofs.«178247_j86079734546997_2_alg».proof.Proof.Gen.Pre_finite_inputs
import proofs.«178247_j86079734546997_2_alg».proof.Proof.KernelResult
import proofs.«178247_j86079734546997_2_alg».proof.Proof.ReferenceRows
import Idealize.ShloMosaic.Adequacy
import Idealize.ShloMosaic.Init

noncomputable section

namespace Cert.Proof

open Idealize.ShloMosaic Idealize.SL.Sem

/-- The kernel program as printed runs to the end and leaves its arguments alone. -/
theorem frame_kernel : Cert.frame_Kernel := fun m ρ _ => Cert.Kernel.Gen.frame m ρ

/-- So does its reading on the extended reals. -/
theorem frame_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The kernel's reading on the extended reals is its own text: no operation was rewritten. -/
theorem preserves : Cert.preserves_Kernel_KernelIdeal := trivial

/-- From memories that agree on the arguments, the kernel program ends with its result vector at the perceptron of each
    row of the input, and so does the reference. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  rw [Cert.ReferenceIdeal.Read.val_main_v14_eq, Cert.ReferenceIdeal.Rows.result_eq, e0, e1, e2, e3, e4, e5, e6]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
